-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x2048x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S16x2048x1024 : Shape := ⟨3, ![16, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S32768x1024 : Shape := ⟨2, ![32768, 1024]⟩
abbrev S1x8 : Shape := ⟨2, ![1, 8]⟩
abbrev S1x4096 : Shape := ⟨2, ![1, 4096]⟩
abbrev S1x1024 : Shape := ⟨2, ![1, 1024]⟩
abbrev S32768x128 : Shape := ⟨2, ![32768, 128]⟩
abbrev S512x128 : Shape := ⟨2, ![512, 128]⟩
abbrev S512x1024 : Shape := ⟨2, ![512, 1024]⟩
abbrev S512x8 : Shape := ⟨2, ![512, 8]⟩
abbrev S512x4096 : Shape := ⟨2, ![512, 4096]⟩

abbrev nBuf : Space → Nat
  | .hbm => 16
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S32768x1024, .f32⟩
  | .hbm, ⟨7, _⟩ => ⟨S8, .f32⟩
  | .hbm, ⟨8, _⟩ => ⟨S1x8, .f32⟩
  | .hbm, ⟨9, _⟩ => ⟨S1x4096, .f32⟩
  | .hbm, ⟨10, _⟩ => ⟨S1x1024, .f32⟩
  | .hbm, ⟨11, _⟩ => ⟨S4096x8, .bf16⟩
  | .hbm, ⟨12, _⟩ => ⟨S1024x4096, .bf16⟩
  | .hbm, ⟨13, _⟩ => ⟨S32768x128, .f32⟩
  | .hbm, ⟨14, _⟩ => ⟨S32768x1024, .f32⟩
  | .hbm, ⟨15, _⟩ => ⟨S16x2048x1024, .f32⟩
  | .local _ .vmem, ⟨0, _⟩ => ⟨S512x128, .f32⟩
  | .local _ .vmem, ⟨1, _⟩ => ⟨S512x128, .f32⟩
  | .local _ .vmem, ⟨2, _⟩ => ⟨S1x8, .f32⟩
  | .local _ .vmem, ⟨3, _⟩ => ⟨S4096x8, .bf16⟩
  | .local _ .vmem, ⟨4, _⟩ => ⟨S1x4096, .f32⟩
  | .local _ .vmem, ⟨5, _⟩ => ⟨S1024x4096, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x2048x1024_S32768x1024 : S16x2048x1024.ShapeCasts S32768x1024
  shapeCasts_S8_S1x8 : S8.ShapeCasts S1x8
  shapeCasts_S4096_S1x4096 : S4096.ShapeCasts S1x4096
  shapeCasts_S1024_S1x1024 : S1024.ShapeCasts S1x1024
  bitsLt_bf16_f32 : FTy.bits .bf16 < FTy.bits .f32
  slices_S32768x1024_S32768x128_0_0 : S32768x1024.Slices ![0, 0] S32768x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x8 : S512x128.Slices ![0, 0] S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S32768x1024_S16x2048x1024 : S32768x1024.ShapeCasts S16x2048x1024
  dot_S512x8_S4096x8_S512x4096_1_1_0_0_n_n_wf : DotDims.WF S512x8 S4096x8 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x128.size a
  hwx0_0 : ∀ i : grid0.Coords, EltTy.bits .f32 = 32 ∨ (Rect.block (s := S32768x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S4096x8.size a
  hwx0_2 : ∀ i : grid0.Coords, EltTy.bits .bf16 = 32 ∨ (Rect.block (s := S4096x8) S4096x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x8_S4096x8_S512x4096_1_1_0_0_n_n : DotDims S512x8 S4096x8 S512x4096 where
  lhsContracting := [1]
  rhsContracting := [1]
  lhsNonContracting := [0]
  rhsNonContracting := [0]
  lhsBatch := []
  rhsBatch := []
  wf := dot_S512x8_S4096x8_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v7) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S16x2048x8 : Shape := ⟨3, ![16, 2048, 8]⟩
abbrev S1x1x8 : Shape := ⟨3, ![1, 1, 8]⟩
abbrev S16x2048x4096 : Shape := ⟨3, ![16, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S16x2048x8, .f32⟩
  | .hbm, ⟨7, _⟩ => ⟨S16x2048x8, .f32⟩
  | .hbm, ⟨8, _⟩ => ⟨S8, .f32⟩
  | .hbm, ⟨9, _⟩ => ⟨S1x1x8, .f32⟩
  | .hbm, ⟨10, _⟩ => ⟨S16x2048x8, .f32⟩
  | .hbm, ⟨11, _⟩ => ⟨S16x2048x8, .f32⟩
  | .hbm, ⟨12, _⟩ => ⟨S16x2048x4096, .f32⟩
  | .hbm, ⟨13, _⟩ => ⟨S1x1x4096, .f32⟩
  | .hbm, ⟨14, _⟩ => ⟨S16x2048x4096, .f32⟩
  | .hbm, ⟨15, _⟩ => ⟨S16x2048x4096, .f32⟩
  | .hbm, ⟨16, _⟩ => ⟨S_, .f32⟩
  | .hbm, ⟨17, _⟩ => ⟨S16x2048x4096, .f32⟩
  | .hbm, ⟨18, _⟩ => ⟨S16x2048x4096, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S16x2048x1024_S16x2048x8_0_0_0 : S16x2048x1024.Slices ![0, 0, 0] S16x2048x8
  bcast_S8_S1x1x8_2 : S8.BroadcastsInDim S1x1x8 (![2] : Fin 1 → Fin S1x1x8.rank)
  bcast_S1x1x8_S16x2048x8_0_1_2 : S1x1x8.BroadcastsInDim S16x2048x8 (![0, 1, 2] : Fin 3 → Fin S16x2048x8.rank)
  bcast_S4096_S1x1x4096_2 : S4096.BroadcastsInDim S1x1x4096 (![2] : Fin 1 → Fin S1x1x4096.rank)
  bcast_S1x1x4096_S16x2048x4096_0_1_2 : S1x1x4096.BroadcastsInDim S16x2048x4096 (![0, 1, 2] : Fin 3 → Fin S16x2048x4096.rank)
  bcast_S_S16x2048x4096 : S_.BroadcastsInDim S16x2048x4096 (![] : Fin 0 → Fin S16x2048x4096.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  dot_S16x2048x8_S4096x8_S16x2048x4096_2_1_01_0_n_n_wf : DotDims.WF S16x2048x8 S4096x8 S16x2048x4096 [2] [1] [0, 1] [0] [] []
  dot_S16x2048x4096_S1024x4096_S16x2048x1024_2_1_01_0_n_n_wf : DotDims.WF S16x2048x4096 S1024x4096 S16x2048x1024 [2] [1] [0, 1] [0] [] []

variable [Facts₀]

def dot_S16x2048x8_S4096x8_S16x2048x4096_2_1_01_0_n_n : DotDims S16x2048x8 S4096x8 S16x2048x4096 where
  lhsContracting := [2]
  rhsContracting := [1]
  lhsNonContracting := [0, 1]
  rhsNonContracting := [0]
  lhsBatch := []
  rhsBatch := []
  wf := dot_S16x2048x8_S4096x8_S16x2048x4096_2_1_01_0_n_n_wf
def dot_S16x2048x4096_S1024x4096_S16x2048x1024_2_1_01_0_n_n : DotDims S16x2048x4096 S1024x4096 S16x2048x1024 where
  lhsContracting := [2]
  rhsContracting := [1]
  lhsNonContracting := [0, 1]
  rhsNonContracting := [0]
  lhsBatch := []
  rhsBatch := []
  wf := dot_S16x2048x4096_S1024x4096_S16x2048x1024_2_1_01_0_n_n_wf

class Facts : Prop extends Facts₀ where

variable [Facts]
-- ==== Proof.Spec.lean ====
/-
  The mathematics of the certificate, with no program in sight.

  One TOKEN is a row of the input: eight "wire" entries x_0 … x_7. From the angles θ, the first layer (W1, b1) and the second
  layer (W2, b2) the token's output entry e is

      out_e = ( Σ_f  max( ( Σ_w (cos x_w · cos θ_w) · W1[f, w] ) + b1[f], 0 ) · W2[e, f] )  +  b2[e]

  over the extended reals: a cosine feature per wire, a linear layer of 4096 units, a rectifier, a linear layer of 1024 units.
  `core` states that formula over plain coordinate functions, so that each program is shown to compute it by naming the
  coordinate functions it reads; `result` is the formula over the [16, 2048, 1024] input read at token (b, s), and `flat`
  the same over the tokens numbered r = 2048·b + s (the [32768, 1024] arrangement of the same rows).
-/
import Idealize.ShloMosaic.PureOps.Ideal
import Idealize.ShloMosaic.Lib.ValueIdx

noncomputable section

open scoped BigOperators

namespace Cert.Ffn

open Idealize.ShloMosaic Idealize.ShloMosaic.ValueIdx

/-- One token's output entry `e`: `cx w` the cosine of the token's wire `w`, `ct w` the cosine of the angle of wire `w`,
    `W1 f w`, `b1 f` the first layer, `W2 e f`, `b2 e` the second. The zero of the rectifier is kept as the float word it
    is printed as. -/
def core (cx ct : Fin 8 → EReal) (W1 : Fin 4096 → Fin 8 → EReal) (b1 : Fin 4096 → EReal)
    (W2 : Fin 1024 → Fin 4096 → EReal) (b2 : Fin 1024 → EReal) (e : Fin 1024) : EReal :=
  (∑ f : Fin 4096, max ((∑ w : Fin 8, (cx w * ct w) * W1 f w) + b1 f) (Ideal.ofBits .f32 0x00000000#32) * W2 e f) + b2 e

/-- `core` depends on its coordinate functions only through their values. -/
theorem core_congr {cx cx' ct ct' : Fin 8 → EReal} {W1 W1' : Fin 4096 → Fin 8 → EReal} {b1 b1' : Fin 4096 → EReal}
    {W2 W2' : Fin 1024 → Fin 4096 → EReal} {b2 b2' : Fin 1024 → EReal} (e : Fin 1024)
    (hx : ∀ w, cx w = cx' w) (ht : ∀ w, ct w = ct' w) (h1 : ∀ f w, W1 f w = W1' f w) (hb1 : ∀ f, b1 f = b1' f)
    (h2 : ∀ f, W2 e f = W2' e f) (hb2 : b2 e = b2' e) :
    core cx ct W1 b1 W2 b2 e = core cx' ct' W1' b1' W2' b2' e := by
  unfold core
  rw [hb2]
  refine congrArg (· + b2' e) (Finset.sum_congr rfl fun f _ => ?_)
  rw [h2 f, hb1 f]
  refine congrArg (fun z => max (z + b1' f) _ * W2' e f) (Finset.sum_congr rfl fun w _ => ?_)
  rw [hx w, ht w, h1 f w]

/-- The eight wires of token (b, s) of the [16, 2048, 1024] input: its first eight entries. -/
def wire (x : (⟨3, ![16, 2048, 1024]⟩ : Shape).Idx → EReal) (b : Fin 16) (s : Fin 2048) (w : Fin 8) : EReal :=
  x (ix3 b s ⟨w.val, by have := w.isLt; omega⟩)

/-- The output at token (b, s), entry e. -/
def resultAt (x : (⟨3, ![16, 2048, 1024]⟩ : Shape).Idx → EReal) (θ : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (b : Fin 16) (s : Fin 2048) (e : Fin 1024) : EReal :=
  core (fun w => Ideal.cos (wire x b s w)) (fun w => Ideal.cos (θ (ix1 w))) (fun f w => W1 (ix2 f w)) (fun f => b1 (ix1 f))
    (fun e f => W2 (ix2 e f)) (fun e => b2 (ix1 e)) e

/-- THE RESULT: the [16, 2048, 1024] array of every token's outputs. -/
def result (x : (⟨3, ![16, 2048, 1024]⟩ : Shape).Idx → EReal) (θ : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨3, ![16, 2048, 1024]⟩ : Shape).Idx → EReal :=
  fun i => resultAt x θ W1 b1 W2 b2 (i 0) (i 1) (i 2)

/-- The same outputs with the tokens numbered r = 2048·b + s: the [32768, 1024] array. -/
def flat (x : (⟨3, ![16, 2048, 1024]⟩ : Shape).Idx → EReal) (θ : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨2, ![32768, 1024]⟩ : Shape).Idx → EReal :=
  fun j => resultAt x θ W1 b1 W2 b2 ⟨(j 0).val / 2048, by have := idx2_lt0 j; omega⟩ ⟨(j 0).val % 2048, Nat.mod_lt _ (by decide)⟩ (j 1)

/-- Token (b, s) is token number 2048·b + s. -/
theorem flat_row (x : (⟨3, ![16, 2048, 1024]⟩ : Shape).Idx → EReal) (θ : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (b : Fin 16) (s : Fin 2048) (e : Fin 1024) (r : Fin 32768) (hr : r.val = b.val * 2048 + s.val) :
    flat x θ W1 b1 W2 b2 (ix2 r e) = result x θ W1 b1 W2 b2 (ix3 b s e) := by
  have hb : (⟨r.val / 2048, by have := r.isLt; omega⟩ : Fin 16) = b := Fin.ext (by
    show r.val / 2048 = b.val
    have := s.isLt; omega)
  have hs : (⟨r.val % 2048, Nat.mod_lt _ (by decide)⟩ : Fin 2048) = s := Fin.ext (by
    show r.val % 2048 = s.val
    have := s.isLt; omega)
  show resultAt x θ W1 b1 W2 b2 ⟨r.val / 2048, _⟩ ⟨r.val % 2048, _⟩ e = resultAt x θ W1 b1 W2 b2 b s e
  rw [hb, hs]

end Cert.Ffn

end
-- ==== Proof.RefSpec.lean ====
/-
  The reference computes `result`.

  Its stages are read at a token (b, s) one after the other: the cosine features times the angles' cosines (a product per
  wire), the first layer as a sum over the eight wires plus its bias, the rectifier against the zero word, the second layer as
  a sum over the 4096 hidden units plus its bias. Each stage's read-at-an-index lemma is the generated one; what is added
  here is the name of the index each stage reads — the same token, the wire or unit of the sum — so that the whole is
  `Cert.Ffn.core` of the argument arrays' coordinates.
-/
import proofs.«115385_j65481071402794_2_alg».proof.Proof.Gen.ReferenceIdeal.Read
import proofs.«115385_j65481071402794_2_alg».proof.Proof.Spec

noncomputable section

open scoped BigOperators

namespace Cert.Ffn.Ref

open Cert.ReferenceIdeal Cert.ReferenceIdeal.Read Idealize.ShloMosaic Idealize.ShloMosaic.ValueIdx

variable (x0 : (⟨S16x2048x1024, .f32⟩ : BufTy).Contents (Elt Ideal)) (x1 : (⟨S8, .f32⟩ : BufTy).Contents (Elt Ideal))
  (x2 : (⟨S4096x8, .f32⟩ : BufTy).Contents (Elt Ideal)) (x3 : (⟨S4096, .f32⟩ : BufTy).Contents (Elt Ideal))
  (x4 : (⟨S1024x4096, .f32⟩ : BufTy).Contents (Elt Ideal)) (x5 : (⟨S1024, .f32⟩ : BufTy).Contents (Elt Ideal))

/-- The feature of wire `w` of token (b, s): the cosine of the entry times the cosine of the wire's angle. -/
theorem feature_at (b : Fin 16) (s : Fin 2048) (w : Fin 8) :
    val_main_v5 (F := Ideal) x0 x1 (ix3 b s w) = Ideal.cos (wire x0 b s w) * Ideal.cos (x1 (ix1 w)) := by
  rw [val_main_v5_apply, val_main_v1_apply, val_main_v0_apply, val_main_v4_apply, val_main_v3_apply, val_main_v2_apply]
  have e0 : idx_main_v0 (ix3 b s w) = ix3 b s ⟨w.val, by have := w.isLt; omega⟩ :=
    funext fun a => by match a with | ⟨0, _⟩ => rfl | ⟨1, _⟩ => rfl | ⟨2, _⟩ => rfl
  have e1 : idx_main_v3 (idx_main_v4 (ix3 b s w)) = ix1 w := funext fun a => by match a with | ⟨0, _⟩ => rfl
  rw [e0, e1]
  rfl

/-- The first layer's unit `f` at token (b, s), before its bias: the sum over the eight wires. -/
theorem layer1_at (b : Fin 16) (s : Fin 2048) (f : Fin 4096) :
    val_main_v6 (F := Ideal) x0 x1 x2 (ix3 b s f)
      = ∑ w : Fin 8, (Ideal.cos (wire x0 b s w) * Ideal.cos (x1 (ix1 w))) * x2 (ix2 f w) := by
  rw [val_main_v6_apply]
  refine Finset.sum_congr rfl fun w _ => ?_
  have el : lidx_main_v6 (ix3 b s f) w = ix3 b s w :=
    funext fun a => by match a with | ⟨0, _⟩ => rfl | ⟨1, _⟩ => rfl | ⟨2, _⟩ => rfl
  have er : ridx_main_v6 (ix3 b s f) w = ix2 f w := funext fun a => by match a with | ⟨0, _⟩ => rfl | ⟨1, _⟩ => rfl
  rw [el, er, feature_at]

/-- The hidden unit `f` at token (b, s): bias added, rectified against the zero word. -/
theorem hidden_at (b : Fin 16) (s : Fin 2048) (f : Fin 4096) :
    val_main_v10 (F := Ideal) x0 x1 x2 x3 (ix3 b s f)
      = max ((∑ w : Fin 8, (Ideal.cos (wire x0 b s w) * Ideal.cos (x1 (ix1 w))) * x2 (ix2 f w)) + x3 (ix1 f))
          (Ideal.ofBits .f32 0x00000000#32) := by
  rw [val_main_v10_apply, val_main_v9_apply, layer1_at, val_main_v8_apply, val_main_v7_apply, val_main_call0_v0_apply,
    val_main_call0_cst_apply]
  have e : idx_main_v7 (idx_main_v8 (ix3 b s f)) = ix1 f := funext fun a => by match a with | ⟨0, _⟩ => rfl
  rw [e]
  rfl

/-- The reference's result at token (b, s), entry e. -/
theorem result_at (b : Fin 16) (s : Fin 2048) (e : Fin 1024) :
    val_main_v14 (F := Ideal) x0 x1 x2 x3 x4 x5 (ix3 b s e) = resultAt x0 x1 x2 x3 x4 x5 b s e := by
  rw [val_main_v14_apply, val_main_v11_apply, val_main_v13_apply, val_main_v12_apply]
  have e5 : idx_main_v12 (idx_main_v13 (ix3 b s e)) = ix1 e := funext fun a => by match a with | ⟨0, _⟩ => rfl
  rw [e5]
  unfold resultAt core
  refine congrArg (· + x5 (ix1 e)) (Finset.sum_congr rfl fun f _ => ?_)
  have el : lidx_main_v11 (ix3 b s e) f = ix3 b s f :=
    funext fun a => by match a with | ⟨0, _⟩ => rfl | ⟨1, _⟩ => rfl | ⟨2, _⟩ => rfl
  have er : ridx_main_v11 (ix3 b s e) f = ix2 e f := funext fun a => by match a with | ⟨0, _⟩ => rfl | ⟨1, _⟩ => rfl
  rw [el, er, hidden_at]

/-- THE REFERENCE IS THE SPECIFICATION: its last stage is `result` of the six argument arrays. -/
theorem ref_eq : val_main_v14 (F := Ideal) x0 x1 x2 x3 x4 x5 = result x0 x1 x2 x3 x4 x5 := by
  funext i
  obtain ⟨b, s, e, rfl⟩ : ∃ (b : Fin 16) (s : Fin 2048) (e : Fin 1024), i = ix3 b s e := ⟨i 0, i 1, i 2, eq_ix3 i⟩
  exact result_at x0 x1 x2 x3 x4 x5 b s e

end Cert.Ffn.Ref

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.Payload.lean ====
/-
  What the kernel body stores, entry by entry.

  At a grid point the body holds a block of 512 tokens (their first 128 entries, of which it uses the first eight), the row of
  the angles' cosines, both layers' weights and both bias rows. Entry (p, e) of what it stores is `Cert.Ffn.core` of token p's
  eight entries: the cosine of an entry times the angle's cosine; the first product along the eight wires from the zero splat,
  plus the bias row, against the zero word; the second product along the 4096 hidden units from the zero splat, plus the bias
  row. The changes of float format on the way into each product are the identity over the extended reals, and a shape cast to
  the same shape is the identity (all the body's casts are of that kind and are removed first).
-/
import proofs.«115385_j65481071402794_2_alg».proof.Proof.Gen.KernelIdeal.Skeleton
import proofs.«115385_j65481071402794_2_alg».proof.Proof.Spec
import proofs.«115385_j65481071402794_2_alg».proof.Proof.LibDotLastAxes
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Ffn.Body

open Cert.KernelIdeal Cert.KernelIdeal.Gen Idealize.ShloMosaic Idealize.ShloMosaic.ValueIdx

/-! ## The two products, at an entry -/

/-- The first product, tokens against the first layer along the eight wires. -/
theorem product1_at (lhs : FVec Ideal S512x8 .bf16) (rhs : FVec Ideal S4096x8 .bf16) (p : Fin 512) (f : Fin 4096) :
    matmul dot_S512x8_S4096x8_S512x4096_1_1_0_0_n_n none lhs rhs (constant (F := Ideal) S512x4096 .f32 0x00000000#32) (ix2 p f)
      = ∑ w : Fin 8, lhs (ix2 p w) * rhs (ix2 f w) :=
  DotLastAxes.matmul_zero_apply dot_S512x8_S4096x8_S512x4096_1_1_0_0_n_n rfl rfl
    (fun j q => by
      unfold DotDims.lhsIdx
      rw [dif_neg (show ¬(0 : Fin S512x8.rank) ∈ dot_S512x8_S4096x8_S512x4096_1_1_0_0_n_n.lhsBatch by decide),
        dif_pos (show (0 : Fin S512x8.rank) ∈ dot_S512x8_S4096x8_S512x4096_1_1_0_0_n_n.lhsNonContracting by decide)]
      rfl)
    (fun j q => dot_S512x8_S4096x8_S512x4096_1_1_0_0_n_n.lhsIdx_val_of_single rfl j q)
    (fun j q => by
      unfold DotDims.rhsIdx
      rw [dif_neg (show ¬(0 : Fin S4096x8.rank) ∈ dot_S512x8_S4096x8_S512x4096_1_1_0_0_n_n.rhsBatch by decide),
        dif_pos (show (0 : Fin S4096x8.rank) ∈ dot_S512x8_S4096x8_S512x4096_1_1_0_0_n_n.rhsNonContracting by decide)]
      rfl)
    (fun j q => dot_S512x8_S4096x8_S512x4096_1_1_0_0_n_n.rhsIdx_val_of_single rfl j q)
    none lhs rhs p f

/-- The second product, hidden units against the second layer along the 4096 units. -/
theorem product2_at (lhs : FVec Ideal S512x4096 .bf16) (rhs : FVec Ideal S1024x4096 .bf16) (p : Fin 512) (e : Fin 1024) :
    matmul dot_S512x4096_S1024x4096_S512x1024_1_1_0_0_n_n none lhs rhs (constant (F := Ideal) S512x1024 .f32 0x00000000#32) (ix2 p e)
      = ∑ f : Fin 4096, lhs (ix2 p f) * rhs (ix2 e f) :=
  DotLastAxes.matmul_zero_apply dot_S512x4096_S1024x4096_S512x1024_1_1_0_0_n_n rfl rfl
    (fun j q => by
      unfold DotDims.lhsIdx
      rw [dif_neg (show ¬(0 : Fin S512x4096.rank) ∈ dot_S512x4096_S1024x4096_S512x1024_1_1_0_0_n_n.lhsBatch by decide),
        dif_pos (show (0 : Fin S512x4096.rank) ∈ dot_S512x4096_S1024x4096_S512x1024_1_1_0_0_n_n.lhsNonContracting by decide)]
      rfl)
    (fun j q => dot_S512x4096_S1024x4096_S512x1024_1_1_0_0_n_n.lhsIdx_val_of_single rfl j q)
    (fun j q => by
      unfold DotDims.rhsIdx
      rw [dif_neg (show ¬(0 : Fin S1024x4096.rank) ∈ dot_S512x4096_S1024x4096_S512x1024_1_1_0_0_n_n.rhsBatch by decide),
        dif_pos (show (0 : Fin S1024x4096.rank) ∈ dot_S512x4096_S1024x4096_S512x1024_1_1_0_0_n_n.rhsNonContracting by decide)]
      rfl)
    (fun j q => dot_S512x4096_S1024x4096_S512x1024_1_1_0_0_n_n.rhsIdx_val_of_single rfl j q)
    none lhs rhs p e

/-! ## The body's stages, at an entry -/

/-- The feature of wire `w` of the block's token `p`: the cosine of the token's entry `w` times the angle row's entry `w`. -/
theorem feature_at (v0 : FVec Ideal S512x128 .f32) (v3 : FVec Ideal S1x8 .f32)
    (h2 : S512x128.Slices ![0, 0] S512x8) (h4 : S1x8.Broadcasts S512x8) (p : Fin 512) (w : Fin 8) :
    mulf (cos (extractStridedSlice S512x8 ![0, 0] v0 h2)) (broadcastTo S512x8 v3 h4) (ix2 p w)
      = Ideal.cos (v0 (ix2 p ⟨w.val, by have := w.isLt; omega⟩)) * v3 (ix2 (0 : Fin 1) w) := by
  rw [mulf_apply, broadcastTo_1b_ab_apply]
  refine congrArg (· * v3 (ix2 (0 : Fin 1) w)) ?_
  show Ideal.cos (extractStridedSlice S512x8 ![0, 0] v0 h2 (ix2 p w)) = _
  rw [slice2_axis1_apply 0 v0 h2 p w ⟨w.val, by have := w.isLt; omega⟩ (by simp)]

/-- The hidden unit `f` of token `p`, from the block's features `q`: the first product, plus the bias row, against zero. -/
theorem hidden_at (q : FVec Ideal S512x8 .f32) (v9 : FVec Ideal S4096x8 .bf16) (v12 : FVec Ideal S1x4096 .f32)
    (hlt : FTy.bits .bf16 < FTy.bits .f32) (h3 : S1x4096.Broadcasts S512x4096) (p : Fin 512) (f : Fin 4096) :
    maximumf (addf (matmul dot_S512x8_S4096x8_S512x4096_1_1_0_0_n_n none (truncf .bf16 q hlt) v9
        (constant (F := Ideal) S512x4096 .f32 0x00000000#32)) (broadcastTo S512x4096 v12 h3))
      (broadcast S512x4096 (Scalar.ofBits (F := Ideal) .f32 0x00000000#32)) (ix2 p f)
      = max ((∑ w : Fin 8, q (ix2 p w) * v9 (ix2 f w)) + v12 (ix2 (0 : Fin 1) f)) (Ideal.ofBits .f32 0x00000000#32) := by
  rw [maximumf_apply, addf_apply, product1_at, broadcastTo_1b_ab_apply, broadcast_apply]
  rfl

/-- THE STORED VALUE at entry (p, e): `core` of token `p`'s first eight entries, the angle row, the two layers and the two
    bias rows as the body loaded them. -/
theorem payload_at (v0 : Vec Ideal S512x128 .f32) (v3 : Vec Ideal S1x8 .f32) (v9 : Vec Ideal S4096x8 .bf16)
    (v12 : Vec Ideal S1x4096 .f32) (v19 : Vec Ideal S1024x4096 .bf16) (v22 : Vec Ideal S1x1024 .f32) (p : Fin 512) (e : Fin 1024) :
    k0_pay1 (F := Ideal) v0 v3 v9 v12 v19 v22 (ix2 p e)
      = core (fun w => Ideal.cos (v0 (ix2 p ⟨w.val, by have := w.isLt; omega⟩))) (fun w => v3 (ix2 (0 : Fin 1) w))
          (fun f w => v9 (ix2 f w)) (fun f => v12 (ix2 (0 : Fin 1) f)) (fun e f => v19 (ix2 e f)) (fun e => v22 (ix2 (0 : Fin 1) e)) e := by
  unfold k0_pay1 core
  dsimp only
  simp only [shapeCast_self]
  rw [addf_apply, product2_at, broadcastTo_1b_ab_apply]
  refine congrArg (· + v22 (ix2 (0 : Fin 1) e)) (Finset.sum_congr rfl fun f _ => ?_)
  rw [truncf_apply, hidden_at]
  refine congrArg (fun z => max (z + v12 (ix2 (0 : Fin 1) f)) (Ideal.ofBits .f32 0x00000000#32) * v19 (ix2 e f))
    (Finset.sum_congr rfl fun w _ => ?_)
  rw [feature_at]

end Cert.Ffn.Body

end
-- ==== Proof.Entry.lean ====
/-
  The arrays the region is launched on, entry by entry.

  Before the region the program re-lays its arguments: the input's 16 × 2048 tokens become 32768 rows, of which the first 128
  entries are kept; the angles' cosines are taken and laid as one row; the two bias vectors are laid as one row each; the two
  weight matrices change float format, which over the extended reals changes nothing. Each lemma reads one of these arrays at
  an entry as an entry of an argument: row r of the tokens is token (r / 2048, r % 2048).
-/
import proofs.«115385_j65481071402794_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.Ffn.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- Row `r` of the launched tokens, entry `l` (of its first 128), is entry `l` of token (r / 2048, r % 2048) of the input. -/
theorem tokens_at (c : Dev nD) (r : Fin 32768) (l : Fin 128) :
    (V m c main_v7 : S32768x128.Idx → EReal) (ix2 r l)
      = (m ((c : Thread nD τ).loc main_arg0) : S16x2048x1024.Idx → EReal)
          (ix3 ⟨r.val / 2048, by have := r.isLt; omega⟩ ⟨r.val % 2048, Nat.mod_lt _ (by decide)⟩ ⟨l.val, by have := l.isLt; omega⟩) := by
  have e : (V m c main_v7 : S32768x128.Idx → EReal)
      = extractStridedSlice S32768x128 ![0, 0]
          (shapeCast S32768x1024 (m ((c : Thread nD τ).loc main_arg0) : S16x2048x1024.Idx → EReal)
            Facts₀.shapeCasts_S16x2048x1024_S32768x1024) Facts₀.slices_S32768x1024_S32768x128_0_0 := by
    show StableHlo.after hostOps0 (fun b => m (c, b)) (Proc.devRef .tc main_v7) = _
    after_results <;> rfl
  rw [e, slice2_axis1_apply 0 _ _ r l ⟨l.val, by have := l.isLt; omega⟩ (by simp)]
  refine shapeCast_apply _ _ _ _ ?_
  show (S16x2048x1024.rowMajor (ix3 _ _ _)).val = (S32768x1024.rowMajor (ix2 r _)).val
  rw [Shape.rowMajor_val_three, Shape.rowMajor_val_two]
  show (r.val / 2048 * 2048 + r.val % 2048) * 1024 + l.val = r.val * 1024 + l.val
  have := Nat.div_add_mod r.val 2048
  omega

/-- The launched angle row at `w` is the cosine of angle `w`. -/
theorem angles_at (c : Dev nD) (w : Fin 8) :
    (V m c main_v2 : S1x8.Idx → EReal) (ix2 (0 : Fin 1) w) = Ideal.cos ((m ((c : Thread nD τ).loc main_arg1) : S8.Idx → EReal) (ix1 w)) := by
  have e : (V m c main_v2 : S1x8.Idx → EReal)
      = shapeCast S1x8 (Host.cos (F := Ideal) (s := S8) (φ := .f32) (m ((c : Thread nD τ).loc main_arg1))) Facts₀.shapeCasts_S8_S1x8 := by
    show StableHlo.after hostOps0 (fun b => m (c, b)) (Proc.devRef .tc main_v2) = _
    after_results <;> rfl
  rw [e, shapeCast_a_1a_apply]
  rfl

/-- The launched first layer is the argument's, entry by entry. -/
theorem layer1_at (c : Dev nD) (f : Fin 4096) (w : Fin 8) :
    (V m c main_v5 : S4096x8.Idx → EReal) (ix2 f w) = (m ((c : Thread nD τ).loc main_arg2) : S4096x8.Idx → EReal) (ix2 f w) := by
  have e : (V m c main_v5 : S4096x8.Idx → EReal)
      = truncf (F := Ideal) (s := S4096x8) (φ := .f32) .bf16 (m ((c : Thread nD τ).loc main_arg2)) Facts₀.bitsLt_bf16_f32 := by
    show StableHlo.after hostOps0 (fun b => m (c, b)) (Proc.devRef .tc main_v5) = _
    after_results <;> rfl
  rw [e]
  rfl

/-- The launched first bias row at `f` is the argument's entry `f`. -/
theorem bias1_at (c : Dev nD) (f : Fin 4096) :
    (V m c main_v3 : S1x4096.Idx → EReal) (ix2 (0 : Fin 1) f) = (m ((c : Thread nD τ).loc main_arg3) : S4096.Idx → EReal) (ix1 f) := by
  have e : (V m c main_v3 : S1x4096.Idx → EReal)
      = shapeCast S1x4096 (m ((c : Thread nD τ).loc main_arg3) : S4096.Idx → EReal) Facts₀.shapeCasts_S4096_S1x4096 := by
    show StableHlo.after hostOps0 (fun b => m (c, b)) (Proc.devRef .tc main_v3) = _
    after_results <;> rfl
  rw [e, shapeCast_a_1a_apply]

/-- The launched second layer is the argument's, entry by entry. -/
theorem layer2_at (c : Dev nD) (e : Fin 1024) (f : Fin 4096) :
    (V m c main_v6 : S1024x4096.Idx → EReal) (ix2 e f) = (m ((c : Thread nD τ).loc main_arg4) : S1024x4096.Idx → EReal) (ix2 e f) := by
  have h : (V m c main_v6 : S1024x4096.Idx → EReal)
      = truncf (F := Ideal) (s := S1024x4096) (φ := .f32) .bf16 (m ((c : Thread nD τ).loc main_arg4)) Facts₀.bitsLt_bf16_f32 := by
    show StableHlo.after hostOps0 (fun b => m (c, b)) (Proc.devRef .tc main_v6) = _
    after_results <;> rfl
  rw [h]
  rfl

/-- The launched second bias row at `e` is the argument's entry `e`. -/
theorem bias2_at (c : Dev nD) (e : Fin 1024) :
    (V m c main_v4 : S1x1024.Idx → EReal) (ix2 (0 : Fin 1) e) = (m ((c : Thread nD τ).loc main_arg5) : S1024.Idx → EReal) (ix1 e) := by
  have h : (V m c main_v4 : S1x1024.Idx → EReal)
      = shapeCast S1x1024 (m ((c : Thread nD τ).loc main_arg5) : S1024.Idx → EReal) Facts₀.shapeCasts_S1024_S1x1024 := by
    show StableHlo.after hostOps0 (fun b => m (c, b)) (Proc.devRef .tc main_v4) = _
    after_results <;> rfl
  rw [h, shapeCast_a_1a_apply]

end Cert.Ffn.Entry

end
-- ==== Proof.Blocks.lean ====
/-
  From the blocks the grid points write to the whole array.

  The grid has 64 points. Point t reads rows 512·t … 512·t + 511 of the launched tokens, every other input whole, and writes
  rows 512·t … 512·t + 511 of the [32768, 1024] output. What it writes is the body's stored value (`Cert.Ffn.Body.payload_at`)
  of those blocks, and each block entry is an entry of a launched array (the read lemmas below), which is an entry of an
  argument (`Cert.Ffn.Entry`). So point t writes rows 512·t … of `Cert.Ffn.flat` of the arguments; the 64 row bands cover
  the array (row r is in band r / 512), hence the array ends holding `flat`.
-/
import proofs.«115385_j65481071402794_2_alg».proof.Proof.Gen.KernelIdeal.Frame
import proofs.«115385_j65481071402794_2_alg».proof.Proof.Spec
import proofs.«115385_j65481071402794_2_alg».proof.Proof.Payload
import proofs.«115385_j65481071402794_2_alg».proof.Proof.Entry
import Idealize.ShloMosaic.Lib.Pipeline.Value
import Idealize.ShloMosaic.Lib.ValueIdx

noncomputable section

open scoped BigOperators

namespace Cert.Ffn.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The [32768, 1024] array of every token's outputs, of the arguments as launched on core `c`. -/
def flatOf (c : Dev nD) : S32768x1024.Idx → EReal :=
  flat (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem zero_offsets : (![0, 0] : Fin 2 → Nat) = fun _ => 0 := funext fun a => by fin_cases a <;> rfl

/-- The printed index maps, decided over the 64 points: the tokens' window and the output's move one block of rows per
    point, every other window stays on its one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block, entry by entry, as the launched array's entry -/

/-- Token `p` of point `t`'s block is row 512·t + p of the launched tokens. -/
theorem tokens_blk (c : Dev nD) (t : Fin cfg0.N) (p : Fin 512) (l : Fin 128) (r : Fin 32768) (hr : r.val = t.val * 512 + p.val) :
    (iblk m c 0 t : S512x128.Idx → EReal) (ix2 p l) = (V m c main_v7 : S32768x128.Idx → EReal) (ix2 r l) := by
  obtain ⟨e0, e1, -⟩ := index_maps t
  unfold iblk
  rw [View.read_apply]
  show V m c main_v7 (((cfg0.win 0).blk t).view.emb (ix2 p l)) = V m c main_v7 (ix2 r l)
  refine congrArg (V m c main_v7) (funext fun a => Fin.ext ?_)
  match a with
  | ⟨0, _⟩ => show win0_0.index t (0 : Fin 2) * 512 + 1 * p.val = r.val; rw [e0, hr]; omega
  | ⟨1, _⟩ => show win0_0.index t (1 : Fin 2) * 128 + 1 * l.val = l.val; rw [e1]; omega

/-- The angle row's block is the launched angle row. -/
theorem angles_blk (c : Dev nD) (t : Fin cfg0.N) (u : Fin 1) (w : Fin 8) :
    (iblk m c 1 t : S1x8.Idx → EReal) (ix2 u w) = (V m c main_v2 : S1x8.Idx → EReal) (ix2 u w) := by
  obtain ⟨-, -, e0, e1, -⟩ := index_maps t
  unfold iblk
  rw [View.read_apply]
  show V m c main_v2 (((cfg0.win 1).blk t).view.emb (ix2 u w)) = V m c main_v2 (ix2 u w)
  refine congrArg (V m c main_v2) (funext fun a => Fin.ext ?_)
  match a with
  | ⟨0, _⟩ => show win0_1.index t (0 : Fin 2) * 1 + 1 * u.val = u.val; rw [e0]; omega
  | ⟨1, _⟩ => show win0_1.index t (1 : Fin 2) * 8 + 1 * w.val = w.val; rw [e1]; omega

/-- The first layer's block is the launched first layer. -/
theorem layer1_blk (c : Dev nD) (t : Fin cfg0.N) (f : Fin 4096) (w : Fin 8) :
    (iblk m c 2 t : S4096x8.Idx → EReal) (ix2 f w) = (V m c main_v5 : S4096x8.Idx → EReal) (ix2 f w) := by
  obtain ⟨-, -, -, -, e0, e1, -⟩ := index_maps t
  unfold iblk
  rw [View.read_apply]
  show V m c main_v5 (((cfg0.win 2).blk t).view.emb (ix2 f w)) = V m c main_v5 (ix2 f w)
  refine congrArg (V m c main_v5) (funext fun a => Fin.ext ?_)
  match a with
  | ⟨0, _⟩ => show win0_2.index t (0 : Fin 2) * 4096 + 1 * f.val = f.val; rw [e0]; omega
  | ⟨1, _⟩ => show win0_2.index t (1 : Fin 2) * 8 + 1 * w.val = w.val; rw [e1]; omega

/-- The first bias row's block is the launched first bias row. -/
theorem bias1_blk (c : Dev nD) (t : Fin cfg0.N) (u : Fin 1) (f : Fin 4096) :
    (iblk m c 3 t : S1x4096.Idx → EReal) (ix2 u f) = (V m c main_v3 : S1x4096.Idx → EReal) (ix2 u f) := by
  obtain ⟨-, -, -, -, -, -, e0, e1, -⟩ := index_maps t
  unfold iblk
  rw [View.read_apply]
  show V m c main_v3 (((cfg0.win 3).blk t).view.emb (ix2 u f)) = V m c main_v3 (ix2 u f)
  refine congrArg (V m c main_v3) (funext fun a => Fin.ext ?_)
  match a with
  | ⟨0, _⟩ => show win0_3.index t (0 : Fin 2) * 1 + 1 * u.val = u.val; rw [e0]; omega
  | ⟨1, _⟩ => show win0_3.index t (1 : Fin 2) * 4096 + 1 * f.val = f.val; rw [e1]; omega

/-- The second layer's block is the launched second layer. -/
theorem layer2_blk (c : Dev nD) (t : Fin cfg0.N) (e : Fin 1024) (f : Fin 4096) :
    (iblk m c 4 t : S1024x4096.Idx → EReal) (ix2 e f) = (V m c main_v6 : S1024x4096.Idx → EReal) (ix2 e f) := by
  obtain ⟨-, -, -, -, -, -, -, -, e0, e1, -⟩ := index_maps t
  unfold iblk
  rw [View.read_apply]
  show V m c main_v6 (((cfg0.win 4).blk t).view.emb (ix2 e f)) = V m c main_v6 (ix2 e f)
  refine congrArg (V m c main_v6) (funext fun a => Fin.ext ?_)
  match a with
  | ⟨0, _⟩ => show win0_4.index t (0 : Fin 2) * 1024 + 1 * e.val = e.val; rw [e0]; omega
  | ⟨1, _⟩ => show win0_4.index t (1 : Fin 2) * 4096 + 1 * f.val = f.val; rw [e1]; omega

/-- The second bias row's block is the launched second bias row. -/
theorem bias2_blk (c : Dev nD) (t : Fin cfg0.N) (u : Fin 1) (e : Fin 1024) :
    (iblk m c 5 t : S1x1024.Idx → EReal) (ix2 u e) = (V m c main_v4 : S1x1024.Idx → EReal) (ix2 u e) := by
  obtain ⟨-, -, -, -, -, -, -, -, -, -, e0, e1, -⟩ := index_maps t
  unfold iblk
  rw [View.read_apply]
  show V m c main_v4 (((cfg0.win 5).blk t).view.emb (ix2 u e)) = V m c main_v4 (ix2 u e)
  refine congrArg (V m c main_v4) (funext fun a => Fin.ext ?_)
  match a with
  | ⟨0, _⟩ => show win0_5.index t (0 : Fin 2) * 1 + 1 * u.val = u.val; rw [e0]; omega
  | ⟨1, _⟩ => show win0_5.index t (1 : Fin 2) * 1024 + 1 * e.val = e.val; rw [e1]; omega

/-! ## What a point writes back -/

/-- Entry (p, e) of what point `t` stores is the output entry `e` of token number 512·t + p. -/
theorem stored_at (c : Dev nD) (t : Fin cfg0.N) (p : Fin 512) (e : Fin 1024) (r : Fin 32768) (hr : r.val = t.val * 512 + p.val) :
    k0_pay1 (F := Ideal) (iblk m c 0 t) (iblk m c 1 t) (iblk m c 2 t) (iblk m c 3 t) (iblk m c 4 t) (iblk m c 5 t) (ix2 p e)
      = flatOf m c (ix2 r e) := by
  refine (Body.payload_at (iblk m c 0 t) (iblk m c 1 t) (iblk m c 2 t) (iblk m c 3 t) (iblk m c 4 t) (iblk m c 5 t) p e).trans ?_
  show _ = resultAt _ _ _ _ _ _ ⟨r.val / 2048, _⟩ ⟨r.val % 2048, _⟩ e
  unfold resultAt
  refine core_congr e (fun w => ?_) (fun w => ?_) (fun f w => ?_) (fun f => ?_) (fun f => ?_) ?_
  · rw [tokens_blk m c t p ⟨w.val, by have := w.isLt; omega⟩ r hr, Entry.tokens_at]
    rfl
  · rw [angles_blk, Entry.angles_at]
  · rw [layer1_blk, Entry.layer1_at]
  · rw [bias1_blk, Entry.bias1_at]
  · rw [layer2_blk, Entry.layer2_at]
  · rw [bias2_blk, Entry.bias2_at]

/-- WHAT POINT `t` WRITES BACK is its block of `flat` of the arguments. -/
theorem flushed_eq (c : Dev nD) (t : Fin cfg0.N) :
    (dats m 0 c).flushed 6 t = ((cfg0.win 6).blk t).view.read (Elt Ideal) (flatOf m c) := by
  show (cfg0.win 6).cut (grid0.coords t) ((dats m 0 c).after 6 t) = _
  rw [after0_6]
  unfold out0_6
  rw [View.canon_unit_zero zero_offsets]
  simp only [View.ld_unit_zero (S := S512x128) zero_offsets, View.ld_unit_zero (S := S1x8) zero_offsets,
    View.ld_unit_zero (S := S4096x8) zero_offsets, View.ld_unit_zero (S := S1x4096) zero_offsets,
    View.ld_unit_zero (S := S1024x4096) zero_offsets, View.ld_unit_zero (S := S1x1024) zero_offsets]
  obtain ⟨-, -, -, -, -, -, -, -, -, -, -, -, e0, e1⟩ := index_maps t
  have hN : cfg0.N = 64 := N_0
  funext j
  obtain ⟨p, e, rfl⟩ : ∃ (p : Fin 512) (e : Fin 1024), j = ix2 p e := ⟨j 0, j 1, eq_ix2 j⟩
  have ht : t.val < 64 := hN ▸ t.isLt
  have hemb : ((cfg0.win 6).blk t).view.emb (ix2 p e) = ix2 (⟨t.val * 512 + p.val, by have := p.isLt; omega⟩ : Fin 32768) e := by
    funext a; apply Fin.ext
    match a with
    | ⟨0, _⟩ => show win0_6.index t (0 : Fin 2) * 512 + 1 * p.val = t.val * 512 + p.val; rw [e0]; omega
    | ⟨1, _⟩ => show win0_6.index t (1 : Fin 2) * 1024 + 1 * e.val = e.val; rw [e1]; omega
  rw [View.read_apply, hemb]
  exact stored_at m c t p e ⟨t.val * 512 + p.val, by have := p.isLt; omega⟩ rfl

/-! ## The cover, and the array after the run -/

/-- An entry of the output is in point `t`'s block iff its row is in band `t` and its column in range. -/
theorem mem_blk (t : Fin cfg0.N) (i : S32768x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v8).slice (win0_6.rect t)).set ↔ _
  rw [View.set_slice_whole, Rect.mem_set_unit]
  exact Iff.rfl

/-- Every entry of the output is in the block of the point its row's band names. -/
theorem cover (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have hN : cfg0.N = 64 := N_0
  obtain ⟨t, ht⟩ : ∃ t : Fin cfg0.N, t.val = (i 0).val / 512 := ⟨⟨(i 0).val / 512, by rw [hN]; omega⟩, rfl⟩
  obtain ⟨-, -, -, -, -, -, -, -, -, -, -, -, e0, e1⟩ := index_maps t
  refine ⟨t, flush0_6 t, ?_⟩
  rw [mem_blk]
  intro a
  match a with
  | ⟨0, _⟩ =>
    show win0_6.index t (0 : Fin 2) * 512 ≤ (i 0).val ∧ (i 0).val < win0_6.index t (0 : Fin 2) * 512 + 512
    rw [e0, ht]; omega
  | ⟨1, _⟩ =>
    show win0_6.index t (1 : Fin 2) * 1024 ≤ (i 1).val ∧ (i 1).val < win0_6.index t (1 : Fin 2) * 1024 + 1024
    rw [e1]; omega

/-- THE ARRAY AFTER THE RUN: `flat` of the arguments. -/
theorem final (c : Dev nD) : (dats m 0 c).arrAt 6 cfg0.N = flatOf m c :=
  (dats m 0 c).arrAt_eq_of_cover 6 (flatOf m c) (fun t _ => flushed_eq m c t) cover

end Cert.Ffn.Blocks

end
-- ==== Proof.KernelRun.lean ====
/-
  The kernel program's run, with its result named.

  After the region the program lays the [32768, 1024] array out as [16, 2048, 1024]: entry (b, s, e) is entry (2048·b + s, e),
  the same place in row-major order. The region's array ends holding `Cert.Ffn.flat` of the arguments
  (`Cert.Ffn.Blocks.final`), and row 2048·b + s of `flat` is token (b, s) of `Cert.Ffn.result` (`Cert.Ffn.flat_row`); so the
  program's result is `result` of its arguments, and the arguments end as they were launched.
-/
import proofs.«115385_j65481071402794_2_alg».proof.Proof.Gen.KernelIdeal.Frame
import proofs.«115385_j65481071402794_2_alg».proof.Proof.Spec
import proofs.«115385_j65481071402794_2_alg».proof.Proof.Blocks
import Idealize.ShloMosaic.Lib.StableHlo.Run
import Idealize.ShloMosaic.Lib.Pipeline.Value
import Idealize.ShloMosaic.Lib.ValueIdx

noncomputable section

namespace Cert.Ffn.Kernel

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The [16, 2048, 1024] array of every token's outputs, of the arguments as launched on core `c`. -/
def resultOf (c : Dev nD) : S16x2048x1024.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The flat array laid out as [16, 2048, 1024] is `result`: entry (b, s, e) is row 2048·b + s, column e. -/
theorem relaid (c : Dev nD) (h : S32768x1024.ShapeCasts S16x2048x1024) :
    shapeCast S16x2048x1024 (Blocks.flatOf m c) h = resultOf m c := by
  funext i
  obtain ⟨b, s, e, rfl⟩ : ∃ (b : Fin 16) (s : Fin 2048) (e : Fin 1024), i = ix3 b s e := ⟨i 0, i 1, i 2, eq_ix3 i⟩
  have hb := b.isLt
  have hs := s.isLt
  rw [shapeCast_apply (Blocks.flatOf m c) h (ix3 b s e) (ix2 (⟨b.val * 2048 + s.val, by omega⟩ : Fin 32768) e) (by
    rw [Shape.rowMajor_val_two, Shape.rowMajor_val_three]
    rfl)]
  exact flat_row _ _ _ _ _ _ b s e ⟨b.val * 2048 + s.val, by omega⟩ rfl

/-- What the lines after the region leave in the program's result: `result` of the arguments. -/
theorem tail_eq (c : Dev nD) :
    Pipeline.afterTail₀ cfgs (dats m) 0 (V0 m) [hostOps1] c main_v9 = resultOf m c := by
  have hw : Pipeline.withArrays (cfgs 0).spec c (V0 m c) (fun w => (dats m 0 c).arrAt w (cfgs 0).N) (Proc.devRef .tc main_v8)
      = Blocks.flatOf m c :=
    (Pipeline.withArrays_arr spec0 launch0.win.arr_inj c _ _ 6).trans (Blocks.final m c)
  unfold Pipeline.afterTail₀
  show StableHlo.after hostOps1 _ (Proc.devRef .tc main_v9) = _
  after_results
  rw [hw]
  exact relaid m c _

/-- THE KERNEL PROGRAM'S RUN: every weakly fair execution terminates with the result at `result` of the arguments and the
    arguments unchanged. -/
theorem run : θ_run defs (onTc (τ := τ) (main (F := Ideal))) ⟨m, fun _ => 0, ρ⟩ fun r => ∀ c : Dev nD,
      r.2.mem ((c.tc : Thread nD τ).loc main_v9) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Ffn.Kernel

end
-- ==== Proof.lean ====
/-
  The certificate of a two-layer feed-forward network on cosine features.

  Both programs compute, for each of the 16 × 2048 tokens and each output entry e,

      out_e = ( Σ_f  max( ( Σ_w (cos x_w · cos θ_w) · W1[f, w] ) + b1[f], 0 ) · W2[e, f] )  +  b2[e]

  from the token's first eight entries x_0 … x_7 (`Cert.Ffn.result`, Proof/Spec.lean). The reference does so over the
  [16, 2048, 1024] input with two `dot_general`s (Proof/RefSpec.lean, over its generated run). The kernel program re-lays the
  tokens as 32768 rows, keeps their first 128 entries, takes the angles' cosines on the host, and runs a grid of 64 points:
  point t computes the formula for rows 512·t … 512·t + 511 (Proof/Payload.lean: the body's two products along the last
  axis of both operands from the zero splat, the bias rows, the rectifier; the changes of float format are the identity over
  the extended reals) and writes those rows of the output; the 64 bands cover the output (Proof/Blocks.lean), which is then
  laid out as [16, 2048, 1024] again (Proof/KernelRun.lean). No algebraic law is needed to join the two sides: each sum is
  taken over the same index set with the same factors in the same order, and the cosine of the kernel's vector unit and the
  host's are one function over the extended reals. Finiteness of the inputs is not used.
-/
import proofs.«115385_j65481071402794_2_alg».proof.Defs
import proofs.«115385_j65481071402794_2_alg».proof.Proof.Gen.Kernel
import proofs.«115385_j65481071402794_2_alg».proof.Proof.Gen.Kernel.Skeleton
import proofs.«115385_j65481071402794_2_alg».proof.Proof.Gen.Kernel.Launch
import proofs.«115385_j65481071402794_2_alg».proof.Proof.Gen.Kernel.Points
import proofs.«115385_j65481071402794_2_alg».proof.Proof.Gen.Kernel.Frame
import proofs.«115385_j65481071402794_2_alg».proof.Proof.Gen.KernelIdeal
import proofs.«115385_j65481071402794_2_alg».proof.Proof.Gen.KernelIdeal.Skeleton
import proofs.«115385_j65481071402794_2_alg».proof.Proof.Gen.KernelIdeal.Launch
import proofs.«115385_j65481071402794_2_alg».proof.Proof.Gen.KernelIdeal.Points
import proofs.«115385_j65481071402794_2_alg».proof.Proof.Gen.KernelIdeal.Frame
import proofs.«115385_j65481071402794_2_alg».proof.Proof.Gen.ReferenceIdeal
import proofs.«115385_j65481071402794_2_alg».proof.Proof.Gen.ReferenceIdeal.Run
import proofs.«115385_j65481071402794_2_alg».proof.Proof.Gen.ReferenceIdeal.Read
import proofs.«115385_j65481071402794_2_alg».proof.Proof.Gen.Pre_finite_inputs
import proofs.«115385_j65481071402794_2_alg».proof.Proof.Spec
import proofs.«115385_j65481071402794_2_alg».proof.Proof.RefSpec
import proofs.«115385_j65481071402794_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from memories that agree on the six arguments, both programs end with the result at
    `Cert.Ffn.result` of the arguments: the kernel program by its run (`Cert.Ffn.Kernel.run`), the reference by its generated
    run, whose term is `result` (`Cert.Ffn.Ref.ref_eq`). -/
theorem algebraic : Cert.algebraic_KernelIdeal_ReferenceIdeal := by
  intro m ρ m' ρ' _ hagree
  refine ⟨fun c => Cert.Ffn.Kernel.resultOf m c, Cert.Ffn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Ffn.Ref.ref_eq, (hagree c).1, (hagree c).2.1, (hagree c).2.2.1,
    (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
